-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x48 : Shape := ⟨2, ![96, 48]⟩
abbrev S48 : Shape := ⟨1, ![48]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x96 : S_.BroadcastsInDim S128x96 (![] : Fin 0 → Fin S128x96.rank)
  reducesTo_S128x96_S_d0_1 : S128x96.ReducesTo [0, 1] S_
  bcast_S_S96 : S_.BroadcastsInDim S96 (![] : Fin 0 → Fin S96.rank)
  reducesTo_S96_S_d0 : S96.ReducesTo [0] S_
  bcast_S_S96x48 : S_.BroadcastsInDim S96x48 (![] : Fin 0 → Fin S96x48.rank)
  reducesTo_S96x48_S_d0_1 : S96x48.ReducesTo [0, 1] S_
  bcast_S_S48 : S_.BroadcastsInDim S48 (![] : Fin 0 → Fin S48.rank)
  reducesTo_S48_S_d0 : S48.ReducesTo [0] S_

variable [Facts]

def fn_part1 {F : FTy → Type} [FloatOps F] (main_arg5 : FVec F S48 .f32) (main_v13 : IVec S_ 1) (main_v16 : IVec S96x48 1) : IVec S_ 1 :=
  let main_c_5 : IVec S_ 1 := constantI S_ 1 1#1
  let main_v17 : IVec S_ 1 := (fun x v => Host.reduce IntOp.andi x v reducesTo_S96x48_S_d0_1 h_S_) main_v16 main_c_5
  let main_v18 : IVec S_ 1 := andi main_v13 main_v17
  let main_v19 : FVec F S48 .f32 := Host.absf main_arg5
  let main_cst_6 : FVec F S_ .f32 := constant S_ .f32 0x7F800000#32
  let main_v20 : FVec F S48 .f32 := broadcastInDim S48 ![] bcast_S_S48 main_cst_6
  let main_v21 : IVec S48 1 := cmpf .olt main_v19 main_v20
  let main_c_7 : IVec S_ 1 := constantI S_ 1 1#1
  let main_v22 : IVec S_ 1 := (fun x v => Host.reduce IntOp.andi x v reducesTo_S48_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x96 .f32) (main_arg3 : FVec F S96 .f32) (main_arg4 : FVec F S96x48 .f32) (main_arg5 : FVec F S48 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x96 .f32 := Host.absf main_arg2
  let main_cst_0 : FVec F S_ .f32 := constant S_ .f32 0x7F800000#32
  let main_v5 : FVec F S128x96 .f32 := broadcastInDim S128x96 ![] bcast_S_S128x96 main_cst_0
  let main_v6 : IVec S128x96 1 := cmpf .olt main_v4 main_v5
  let main_c_1 : IVec S_ 1 := constantI S_ 1 1#1
  let main_v7 : IVec S_ 1 := (fun x v => Host.reduce IntOp.andi x v reducesTo_S128x96_S_d0_1 h_S_) main_v6 main_c_1
  let main_v8 : IVec S_ 1 := andi main_v3 main_v7
  let main_v9 : FVec F S96 .f32 := Host.absf main_arg3
  let main_cst_2 : FVec F S_ .f32 := constant S_ .f32 0x7F800000#32
  let main_v10 : FVec F S96 .f32 := broadcastInDim S96 ![] bcast_S_S96 main_cst_2
  let main_v11 : IVec S96 1 := cmpf .olt main_v9 main_v10
  let main_c_3 : IVec S_ 1 := constantI S_ 1 1#1
  let main_v12 : IVec S_ 1 := (fun x v => Host.reduce IntOp.andi x v reducesTo_S96_S_d0 h_S_) main_v11 main_c_3
  let main_v13 : IVec S_ 1 := andi main_v8 main_v12
  let main_v14 : FVec F S96x48 .f32 := Host.absf main_arg4
  let main_cst_4 : FVec F S_ .f32 := constant S_ .f32 0x7F800000#32
  let main_v15 : FVec F S96x48 .f32 := broadcastInDim S96x48 ![] bcast_S_S96x48 main_cst_4
  let main_v16 : IVec S96x48 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x48 : Shape := ⟨2, ![96, 48]⟩
abbrev S48 : Shape := ⟨1, ![48]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S5000x128 : Shape := ⟨2, ![5000, 128]⟩
abbrev S5000x96 : Shape := ⟨2, ![5000, 96]⟩
abbrev S850000x96 : Shape := ⟨2, ![850000, 96]⟩
abbrev S1x96 : Shape := ⟨2, ![1, 96]⟩
abbrev S50000x48 : Shape := ⟨2, ![50000, 48]⟩
abbrev S5000x48 : Shape := ⟨2, ![5000, 48]⟩
abbrev S850000x48 : Shape := ⟨2, ![850000, 48]⟩
abbrev S1x48 : Shape := ⟨2, ![1, 48]⟩

abbrev nBuf : Space → Nat
  | .hbm => 90
  | .vmem => 10
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x48, .f32⟩
  | .hbm, ⟨5, _⟩ => ⟨S48, .f32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x96, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .f32⟩
  | .hbm, ⟨57, _⟩ => ⟨S850000x1, .f32⟩
  | .hbm, ⟨58, _⟩ => ⟨S850000x96, .f32⟩
  | .hbm, ⟨59, _⟩ => ⟨S850000x96, .f32⟩
  | .hbm, ⟨60, _⟩ => ⟨S_, .f32⟩
  | .hbm, ⟨61, _⟩ => ⟨S50000x96, .f32⟩
  | .hbm, ⟨62, _⟩ => ⟨S850000x1, .i32⟩
  | .hbm, ⟨63, _⟩ => ⟨S50000x96, .f32⟩
  | .hbm, ⟨64, _⟩ => ⟨S1x96, .f32⟩
  | .hbm, ⟨65, _⟩ => ⟨S50000x96, .f32⟩
  | .hbm, ⟨66, _⟩ => ⟨S50000x96, .f32⟩
  | .hbm, ⟨67, _⟩ => ⟨S_, .f32⟩
  | .hbm, ⟨68, _⟩ => ⟨S50000x96, .f32⟩
  | .hbm, ⟨69, _⟩ => ⟨S50000x96, .f32⟩
  | .hbm, ⟨70, _⟩ => ⟨S50000x48, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x48, .f32⟩
  | .hbm, ⟨80, _⟩ => ⟨S850000x1, .f32⟩
  | .hbm, ⟨81, _⟩ => ⟨S850000x48, .f32⟩
  | .hbm, ⟨82, _⟩ => ⟨S850000x48, .f32⟩
  | .hbm, ⟨83, _⟩ => ⟨S_, .f32⟩
  | .hbm, ⟨84, _⟩ => ⟨S50000x48, .f32⟩
  | .hbm, ⟨85, _⟩ => ⟨S850000x1, .i32⟩
  | .hbm, ⟨86, _⟩ => ⟨S50000x48, .f32⟩
  | .hbm, ⟨87, _⟩ => ⟨S1x48, .f32⟩
  | .hbm, ⟨88, _⟩ => ⟨S50000x48, .f32⟩
  | .hbm, ⟨89, _⟩ => ⟨S50000x48, .f32⟩
  | .local _ .vmem, ⟨0, _⟩ => ⟨S5000x128, .f32⟩
  | .local _ .vmem, ⟨1, _⟩ => ⟨S5000x128, .f32⟩
  | .local _ .vmem, ⟨2, _⟩ => ⟨S128x96, .f32⟩
  | .local _ .vmem, ⟨3, _⟩ => ⟨S5000x96, .f32⟩
  | .local _ .vmem, ⟨4, _⟩ => ⟨S5000x96, .f32⟩
  | .local _ .vmem, ⟨5, _⟩ => ⟨S5000x96, .f32⟩
  | .local _ .vmem, ⟨6, _⟩ => ⟨S5000x96, .f32⟩
  | .local _ .vmem, ⟨7, _⟩ => ⟨S96x48, .f32⟩
  | .local _ .vmem, ⟨8, _⟩ => ⟨S5000x48, .f32⟩
  | .local _ .vmem, ⟨9, _⟩ => ⟨S5000x48, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x96 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x96 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S96x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x48 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x96_S128x96_0_0 : ∀ a, (![0, 0] : Fin 2 → Nat) a + S128x96.size a ≤ S128x96.size a
  h_S128x96 : 0 < S128x96.numel
  inb_S5000x96_S5000x96_0_0 : ∀ a, (![0, 0] : Fin 2 → Nat) a + S5000x96.size a ≤ S5000x96.size a
  h_S5000x96 : 0 < S5000x96.numel
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  shapeCasts_S5000x96_S5000x96 : S5000x96.ShapeCasts S5000x96
  inb_S96x48_S96x48_0_0 : ∀ a, (![0, 0] : Fin 2 → Nat) a + S96x48.size a ≤ S96x48.size a
  h_S96x48 : 0 < S96x48.numel
  inb_S5000x48_S5000x48_0_0 : ∀ a, (![0, 0] : Fin 2 → Nat) a + S5000x48.size a ≤ S5000x48.size a
  h_S5000x48 : 0 < S5000x48.numel
  bcast_S850000x1_S850000x48_0_1 : S850000x1.BroadcastsInDim S850000x48 (![0, 1] : Fin 2 → Fin S850000x48.rank)
  bcast_S_S50000x48 : S_.BroadcastsInDim S50000x48 (![] : Fin 0 → Fin S50000x48.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x96_S5000x96_1_0_0_1_n_n_wf : DotDims.WF S5000x128 S128x96 S5000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S5000x96_S96x48_S5000x48_1_0_0_1_n_n_wf : DotDims.WF S5000x96 S96x48 S5000x48 [1] [0] [0] [1] [] []
  gather_S50000x48_S850000x1_S850000x48_1_0_n_n_0_1_148_wf : GatherDims.WF S50000x48 S850000x1 S850000x48 [1] [0] [] [0] [] 1 ![1, 48]
  scatter_S50000x48_S850000x1_S850000x48_1_0_0_1_wf : ScatterDims.WF S50000x48 S850000x1 S850000x48 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x96.size a ≤ S128x96.size a
  hwx0_1 : ∀ i : grid0.Coords, EltTy.bits .f32 = 32 ∨ (Rect.block (s := S128x96) S128x96.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x96.size a ≤ S50000x96.size a
  hwx0_2 : ∀ i : grid0.Coords, EltTy.bits .f32 = 32 ∨ (Rect.block (s := S50000x96) S5000x96.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x96.size a ≤ S50000x96.size a
  hwx1_0 : ∀ i : grid1.Coords, EltTy.bits .f32 = 32 ∨ (Rect.block (s := S50000x96) S5000x96.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S96x48.size a ≤ S96x48.size a
  hwx1_1 : ∀ i : grid1.Coords, EltTy.bits .f32 = 32 ∨ (Rect.block (s := S96x48) S96x48.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x48.size a ≤ S50000x48.size a
  hwx1_2 : ∀ i : grid1.Coords, EltTy.bits .f32 = 32 ∨ (Rect.block (s := S50000x48) S5000x48.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x96_S5000x96_1_0_0_1_n_n : DotDims S5000x128 S128x96 S5000x96 where
  lhsContracting := [1]
  rhsContracting := [0]
  lhsNonContracting := [0]
  rhsNonContracting := [1]
  lhsBatch := []
  rhsBatch := []
  wf := dot_S5000x128_S128x96_S5000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S5000x96_S96x48_S5000x48_1_0_0_1_n_n : DotDims S5000x96 S96x48 S5000x48 where
  lhsContracting := [1]
  rhsContracting := [0]
  lhsNonContracting := [0]
  rhsNonContracting := [1]
  lhsBatch := []
  rhsBatch := []
  wf := dot_S5000x96_S96x48_S5000x48_1_0_0_1_n_n_wf
def gather_S50000x48_S850000x1_S850000x48_1_0_n_n_0_1_148 : GatherDims S50000x48 S850000x1 S850000x48 where
  offsetDims := [1]
  collapsedSliceDims := [0]
  operandBatchingDims := []
  startIndicesBatchingDims := []
  startIndexMap := [0]
  indexVectorDim := 1
  sliceSizes := ![1, 48]
  wf := gather_S50000x48_S850000x1_S850000x48_1_0_n_n_0_1_148_wf
def scatter_S50000x48_S850000x1_S850000x48_1_0_0_1 : ScatterDims S50000x48 S850000x1 S850000x48 where
  updateWindowDims := [1]
  insertedWindowDims := [0]
  scatterDimsToOperandDims := [0]
  indexVectorDim := 1
  wf := scatter_S50000x48_S850000x1_S850000x48_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x96.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S5000x96.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v48) S5000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S96x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v49) S5000x48.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x96 : Shape := ⟨2, ![128, 96]⟩
abbrev S96 : Shape := ⟨1, ![96]⟩
abbrev S96x48 : Shape := ⟨2, ![96, 48]⟩
abbrev S48 : Shape := ⟨1, ![48]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x96 : Shape := ⟨2, ![50000, 96]⟩
abbrev S850000x96 : Shape := ⟨2, ![850000, 96]⟩
abbrev S1x96 : Shape := ⟨2, ![1, 96]⟩
abbrev S50000x48 : Shape := ⟨2, ![50000, 48]⟩
abbrev S850000x48 : Shape := ⟨2, ![850000, 48]⟩
abbrev S1x48 : Shape := ⟨2, ![1, 48]⟩

abbrev nBuf : Space → Nat
  | .hbm => 90
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x96, .f32⟩
  | .hbm, ⟨3, _⟩ => ⟨S96, .f32⟩
  | .hbm, ⟨4, _⟩ => ⟨S96x48, .f32⟩
  | .hbm, ⟨5, _⟩ => ⟨S48, .f32⟩
  | .hbm, ⟨6, _⟩ => ⟨S1x800000, .i32⟩
  | .hbm, ⟨7, _⟩ => ⟨S800000, .i32⟩
  | .hbm, ⟨8, _⟩ => ⟨S50000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S_, .f32⟩
  | .hbm, ⟨15, _⟩ => ⟨S850000, .f32⟩
  | .hbm, ⟨16, _⟩ => ⟨S_, .f32⟩
  | .hbm, ⟨17, _⟩ => ⟨S50000, .f32⟩
  | .hbm, ⟨18, _⟩ => ⟨S850000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x96, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x96, .f32⟩
  | .hbm, ⟨57, _⟩ => ⟨S850000x1, .f32⟩
  | .hbm, ⟨58, _⟩ => ⟨S850000x96, .f32⟩
  | .hbm, ⟨59, _⟩ => ⟨S850000x96, .f32⟩
  | .hbm, ⟨60, _⟩ => ⟨S_, .f32⟩
  | .hbm, ⟨61, _⟩ => ⟨S50000x96, .f32⟩
  | .hbm, ⟨62, _⟩ => ⟨S850000x1, .i32⟩
  | .hbm, ⟨63, _⟩ => ⟨S50000x96, .f32⟩
  | .hbm, ⟨64, _⟩ => ⟨S1x96, .f32⟩
  | .hbm, ⟨65, _⟩ => ⟨S50000x96, .f32⟩
  | .hbm, ⟨66, _⟩ => ⟨S50000x96, .f32⟩
  | .hbm, ⟨67, _⟩ => ⟨S_, .f32⟩
  | .hbm, ⟨68, _⟩ => ⟨S50000x96, .f32⟩
  | .hbm, ⟨69, _⟩ => ⟨S50000x96, .f32⟩
  | .hbm, ⟨70, _⟩ => ⟨S50000x48, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x48, .f32⟩
  | .hbm, ⟨80, _⟩ => ⟨S850000x1, .f32⟩
  | .hbm, ⟨81, _⟩ => ⟨S850000x48, .f32⟩
  | .hbm, ⟨82, _⟩ => ⟨S850000x48, .f32⟩
  | .hbm, ⟨83, _⟩ => ⟨S_, .f32⟩
  | .hbm, ⟨84, _⟩ => ⟨S50000x48, .f32⟩
  | .hbm, ⟨85, _⟩ => ⟨S850000x1, .i32⟩
  | .hbm, ⟨86, _⟩ => ⟨S50000x48, .f32⟩
  | .hbm, ⟨87, _⟩ => ⟨S1x48, .f32⟩
  | .hbm, ⟨88, _⟩ => ⟨S50000x48, .f32⟩
  | .hbm, ⟨89, _⟩ => ⟨S50000x48, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call1_cst : Ref sig .tc := ⟨.hbm, 67, rfl⟩
abbrev main_call1_v0 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_11 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x96_0_1 : S850000x1.BroadcastsInDim S850000x96 (![0, 1] : Fin 2 → Fin S850000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  bcast_S850000x1_S850000x48_0_1 : S850000x1.BroadcastsInDim S850000x48 (![0, 1] : Fin 2 → Fin S850000x48.rank)
  bcast_S_S50000x48 : S_.BroadcastsInDim S50000x48 (![] : Fin 0 → Fin S50000x48.rank)
  bcast_S48_S1x48_1 : S48.BroadcastsInDim S1x48 (![1] : Fin 1 → Fin S1x48.rank)
  bcast_S1x48_S50000x48_0_1 : S1x48.BroadcastsInDim S50000x48 (![0, 1] : Fin 2 → Fin S50000x48.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x96_S50000x96_1_0_0_1_n_n_wf : DotDims.WF S50000x128 S128x96 S50000x96 [1] [0] [0] [1] [] []
  gather_S50000x96_S850000x1_S850000x96_1_0_n_n_0_1_196_wf : GatherDims.WF S50000x96 S850000x1 S850000x96 [1] [0] [] [0] [] 1 ![1, 96]
  scatter_S50000x96_S850000x1_S850000x96_1_0_0_1_wf : ScatterDims.WF S50000x96 S850000x1 S850000x96 [1] [0] [0] 1
  dot_S50000x96_S96x48_S50000x48_1_0_0_1_n_n_wf : DotDims.WF S50000x96 S96x48 S50000x48 [1] [0] [0] [1] [] []
  gather_S50000x48_S850000x1_S850000x48_1_0_n_n_0_1_148_wf : GatherDims.WF S50000x48 S850000x1 S850000x48 [1] [0] [] [0] [] 1 ![1, 48]
  scatter_S50000x48_S850000x1_S850000x48_1_0_0_1_wf : ScatterDims.WF S50000x48 S850000x1 S850000x48 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x96_S50000x96_1_0_0_1_n_n : DotDims S50000x128 S128x96 S50000x96 where
  lhsContracting := [1]
  rhsContracting := [0]
  lhsNonContracting := [0]
  rhsNonContracting := [1]
  lhsBatch := []
  rhsBatch := []
  wf := dot_S50000x128_S128x96_S50000x96_1_0_0_1_n_n_wf
def gather_S50000x96_S850000x1_S850000x96_1_0_n_n_0_1_196 : GatherDims S50000x96 S850000x1 S850000x96 where
  offsetDims := [1]
  collapsedSliceDims := [0]
  operandBatchingDims := []
  startIndicesBatchingDims := []
  startIndexMap := [0]
  indexVectorDim := 1
  sliceSizes := ![1, 96]
  wf := gather_S50000x96_S850000x1_S850000x96_1_0_n_n_0_1_196_wf
def scatter_S50000x96_S850000x1_S850000x96_1_0_0_1 : ScatterDims S50000x96 S850000x1 S850000x96 where
  updateWindowDims := [1]
  insertedWindowDims := [0]
  scatterDimsToOperandDims := [0]
  indexVectorDim := 1
  wf := scatter_S50000x96_S850000x1_S850000x96_1_0_0_1_wf
def dot_S50000x96_S96x48_S50000x48_1_0_0_1_n_n : DotDims S50000x96 S96x48 S50000x48 where
  lhsContracting := [1]
  rhsContracting := [0]
  lhsNonContracting := [0]
  rhsNonContracting := [1]
  lhsBatch := []
  rhsBatch := []
  wf := dot_S50000x96_S96x48_S50000x48_1_0_0_1_n_n_wf
def gather_S50000x48_S850000x1_S850000x48_1_0_n_n_0_1_148 : GatherDims S50000x48 S850000x1 S850000x48 where
  offsetDims := [1]
  collapsedSliceDims := [0]
  operandBatchingDims := []
  startIndicesBatchingDims := []
  startIndexMap := [0]
  indexVectorDim := 1
  sliceSizes := ![1, 48]
  wf := gather_S50000x48_S850000x1_S850000x48_1_0_n_n_0_1_148_wf
def scatter_S50000x48_S850000x1_S850000x48_1_0_0_1 : ScatterDims S50000x48 S850000x1 S850000x48 where
  updateWindowDims := [1]
  insertedWindowDims := [0]
  scatterDimsToOperandDims := [0]
  indexVectorDim := 1
  wf := scatter_S50000x48_S850000x1_S850000x48_1_0_0_1_wf

class Facts : Prop extends Facts₀ where

variable [Facts]
-- ==== Proof.KernelRun.lean ====
/-
  The idealized kernel program's run with its result array named.

  The program is two launches of a blocked matrix product among stretches of host operations.  Its
  frame run ends with every unscoped buffer of a core at the contents `W8`: the fold of the host
  stretches and of the two regions' write-backs over the launch memory.  Read at the result buffer
  this says what the program returns; read at the six argument buffers, that they end as launched.
-/
import proofs.«111291_j7876970020898_1_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at the
    last boundary's contents and the six arguments end as launched. -/
theorem run : θ_run defs (onTc (τ := τ) (main (F := F))) ⟨m, fun _ => 0, ρ⟩ (fun r => ∀ c : Dev nD,
      r.2.mem ((c.tc : Thread nD τ).loc main_v65) = W8 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v65 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.Named

end
-- ==== Proof.RefFold.lean ====
/-
  The idealized reference's run, its result left as the fold of its operations.

  The reference is one straight line of host operations, so every weakly fair execution terminates with each
  buffer at the operations' results folded, in order, over the launch memory.  The result buffer is read as
  that fold, unopened; no operation writes an argument, so the six arguments end as launched.
-/
import proofs.«111291_j7876970020898_1_alg».proof.Proof.RefRun

noncomputable section

namespace Cert.ReferenceIdeal.Fold

open Cert.ReferenceIdeal Cert.ReferenceIdeal.Gen Cert.ReferenceIdeal.ValueP
open Idealize.ShloMosaic Idealize.ShloMosaic.TcCoe Idealize.SL.Sem Idealize.ShloMosaic.StableHlo

variable {F : FTy → Type} [FloatOps F]

set_option maxRecDepth 8192 in
set_option maxHeartbeats 8000000 in
/-- Every weakly fair execution of the reference terminates, nothing faulting, with the result buffer at the
    fold of the operations over the launch memory and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = after (ops (F := F)) (launchContents m c) (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v65,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Fold

end
-- ==== Proof.LibPlainDot.lean ====
/-
  A plain matrix product read at an index, generic in the three extents.

  For the dimension numbers "rows × contraction times contraction × columns" (`DotDims.plain M K N`:
  no batch axis, the left operand contracted on its last axis, the right on its first), at the ideal
  values — floats extended reals, every operation exact — a `tpu.matmul` into the zero accumulator, read
  at the output index (r, c), is the plain sum over k of lhs (r, k) · rhs (k, c): no rounding and no
  chunk order is left in it.  The contraction index, a one-axis multi-index, is re-indexed by its one
  coordinate.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The left operand's index at output index (r, c) and contraction position k is (r, k). -/
theorem lhsIdx_plain (r : Fin M) (c : Fin N) (k : Fin K) :
    (DotDims.plain M K N).lhsIdx (ix2 r c) ((contrEquiv1 (DotDims.plain M K N) K rfl rfl).symm k) = ix2 r k := by
  have hk := contrEquiv1_symm_val (DotDims.plain M K N) K rfl rfl k
  exact funext fun a => Fin.ext (by
    match a with
    | ⟨0, _⟩ => rfl
    | ⟨1, _⟩ => exact ((DotDims.plain M K N).lhsIdx_val_of_single rfl _ _).trans hk)

/-- The right operand's index at output index (r, c) and contraction position k is (k, c). -/
theorem rhsIdx_plain (r : Fin M) (c : Fin N) (k : Fin K) :
    (DotDims.plain M K N).rhsIdx (ix2 r c) ((contrEquiv1 (DotDims.plain M K N) K rfl rfl).symm k) = ix2 k c := by
  have hk := contrEquiv1_symm_val (DotDims.plain M K N) K rfl rfl k
  exact funext fun a => Fin.ext (by
    match a with
    | ⟨0, _⟩ => exact ((DotDims.plain M K N).rhsIdx_val_of_single rfl _ _).trans hk
    | ⟨1, _⟩ => rfl)

/-- A plain `tpu.matmul` into the zero accumulator, at the ideal values, read at (r, c):
    the sum over k of lhs (r, k) · rhs (k, c). -/
theorem matmul_plain_zero_apply {φ₁ φ₂ : FTy} (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant (F := Ideal) ⟨2, ![M, N]⟩ .f32 0x00000000#32) (ix2 r c)
      = ∑ k : Fin K, lhs (ix2 r k) * rhs (ix2 k c) := by
  show FloatOps.matmul (DotDims.plain M K N) prec lhs rhs (constant (F := Ideal) ⟨2, ![M, N]⟩ .f32 0x00000000#32) (ix2 r c) = _
  rw [Ideal.matmul_constant_zero_apply, ← Equiv.sum_comp (contrEquiv1 (DotDims.plain M K N) K rfl rfl).symm]
  refine Finset.sum_congr rfl fun k _ => ?_
  rw [lhsIdx_plain, rhsIdx_plain]

end Cert.Lib.PlainDot

end
-- ==== Proof.LibRowBlocks.lean ====
/-
  A matrix product computed by blocks of rows is the whole product.

  At the ideal values — floats extended reals, every operation exact — the host's `dot_general` with
  the plain dimension numbers "rows × contraction times contraction × columns", read at the output
  index (r, c), is the sum over k of lhs (r, k) · rhs (k, c), exactly what a `tpu.matmul` into the zero
  accumulator is.  So a row block of the left operand, multiplied on the matrix unit by the whole right
  operand, gives at its local index (p, c) the whole product's entry at (r, c), where r is the row of the
  whole array that the block's row p is.  No finiteness is used: both sides are one and the same sum.
-/
import proofs.«111291_j7876970020898_1_alg».proof.Proof.LibPlainDot

noncomputable section

namespace Cert.Lib.RowBlocks

open Idealize.ShloMosaic Idealize.ShloMosaic.ValueIdx Cert.Lib.PlainDot

variable {M K N : Nat}

/-- The host's plain `dot_general`, at the ideal values, read at (r, c): the sum over k of
    lhs (r, k) · rhs (k, c). -/
theorem dotGeneral_plain_apply {φ₁ φ₂ : FTy} (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  show FloatOps.dotGeneral (DotDims.plain M K N) prec .single lhs rhs (ix2 r c) = _
  rw [Ideal.dotGeneral_apply, ← Equiv.sum_comp (contrEquiv1 (DotDims.plain M K N) K rfl rfl).symm]
  refine Finset.sum_congr rfl fun k _ => ?_
  rw [lhsIdx_plain, rhsIdx_plain]

/-- A block of B rows of the left operand times the whole right operand, into the zero accumulator: its
    entry at the local index (p, c) is the whole product's entry at (r, c), when row p of the block is row r
    of the whole left operand and the block's right operand is the whole one (the operands' float formats may
    differ between the block and the whole: at the ideal values every format is the extended reals). -/
theorem matmul_rows_eq_dotGeneral {B : Nat} {φ₁ φ₂ ψ₁ ψ₂ : FTy} (prec prec' : Option ContractPrecision)
    (x : FVec Ideal ⟨2, ![M, K]⟩ ψ₁) (w : FVec Ideal ⟨2, ![K, N]⟩ ψ₂)
    (xb : FVec Ideal ⟨2, ![B, K]⟩ φ₁) (wb : FVec Ideal ⟨2, ![K, N]⟩ φ₂) (p : Fin B) (r : Fin M) (c : Fin N)
    (hx : ∀ k : Fin K, (xb (ix2 p k) : EReal) = x (ix2 r k)) (hw : ∀ k : Fin K, (wb (ix2 k c) : EReal) = w (ix2 k c)) :
    matmul (DotDims.plain B K N) prec xb wb (constant (F := Ideal) ⟨2, ![B, N]⟩ .f32 0x00000000#32) (ix2 p c)
      = Host.dotGeneral (DotDims.plain M K N) prec' x w (ix2 r c) := by
  rw [matmul_plain_zero_apply, dotGeneral_plain_apply]
  exact Finset.sum_congr rfl fun k _ => congrArg₂ (fun a b : EReal => a * b) (hx k) (hw k)

end Cert.Lib.RowBlocks

end
-- ==== Proof.Blocks.lean ====
/-
  The two launches as whole matrix products.

  Each launch of the kernel walks ten blocks of 5000 rows of its left operand; at a block it loads the
  block and the whole right operand, rounds both to bf16 (at the ideal values a change of float format is
  the identity), multiplies them on the matrix unit into a zero accumulator, and stores the 5000 result
  rows.  At the ideal values the stored entry (p, q) of block t is the sum over k of x (5000·t + p, k) ·
  w (k, q): the entry (5000·t + p, q) of the host's plain `dot_general` of the whole arrays.  The ten
  blocks tile the result array, so after the launch the array IS that product of the arrays the launch
  found in its operand buffers.  Stated for any contents `V` of the buffers at the launch's entry.
-/
import proofs.«111291_j7876970020898_1_alg».proof.Proof.Gen.KernelIdeal.Frame
import proofs.«111291_j7876970020898_1_alg».proof.Proof.LibRowBlocks
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Launch 0: [50000, 128] times [128, 96], ten blocks of 5000 rows -/

/-- The launch's whole product: the host's plain `dot_general` of the two whole operands. -/
abbrev prod0 (x : FVec Ideal S50000x128 .f32) (w : FVec Ideal S128x96 .f32) : FVec Ideal S50000x96 .f32 :=
  Host.dotGeneral (DotDims.plain 50000 128 96) none x w

/-- The printed index maps over the grid: at point t the left operand's and the result's block is block t of
    the rows, and the right operand's block is the whole matrix. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left operand's block at point t is rows 5000·t … 5000·t + 4999 of the array the launch finds. -/
theorem iblk0_0_apply (c : Dev nD) (t : Fin cfg0.N) (x : S5000x128.Idx) (k : S50000x128.Idx)
    (hk0 : (k 0).val = 5000 * t.val + (x 0).val) (hk1 : (k 1).val = (x 1).val) :
    (iblk0 V c 0 t : Vec Ideal S5000x128 .f32) x = (V c main_arg0 : S50000x128.Idx → Elt Ideal .f32) k := by
  obtain ⟨e0, e1, -⟩ := idx0 t
  unfold iblk0
  rw [View.read_apply]
  show V c main_arg0 _ = V c main_arg0 _
  refine congrArg _ ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The right operand's block at every point is the whole matrix. -/
theorem iblk0_1_apply (c : Dev nD) (t : Fin cfg0.N) (x : S128x96.Idx) :
    (iblk0 V c 1 t : Vec Ideal S128x96 .f32) x = (V c main_arg2 : S128x96.Idx → Elt Ideal .f32) x := by
  obtain ⟨-, -, e0, e1, -⟩ := idx0 t
  unfold iblk0
  rw [View.read_apply]
  show V c main_arg2 _ = V c main_arg2 _
  refine congrArg _ ?_
  funext a
  apply Fin.ext
  match a with
  | ⟨0, _⟩ => show win0_1.index t 0 * 128 + 1 * (x 0).val = (x 0).val; rw [e0]; omega
  | ⟨1, _⟩ => show win0_1.index t 1 * 96 + 1 * (x 1).val = (x 1).val; rw [e1]; omega

/-- The body's stored value at the local index (p, q): both operands are rounded to bf16 — the identity at the
    ideal values — and multiplied into the zero accumulator, so the entry is the whole product's at (r, q)
    when row p of the loaded block is row r of the whole left operand. -/
theorem pay0_apply (x0 : Vec Ideal S5000x128 .f32) (x1 : Vec Ideal S128x96 .f32)
    (x : FVec Ideal S50000x128 .f32) (w : FVec Ideal S128x96 .f32) (p : Fin 5000) (q : Fin 96) (r : Fin 50000)
    (hx : ∀ k : Fin 128, x0 (ix2 p k) = x (ix2 r k)) (hw : ∀ k : Fin 128, x1 (ix2 k q) = w (ix2 k q)) :
    k0_pay1 (F := Ideal) x0 x1 (ix2 p q) = prod0 x w (ix2 r q) := by
  unfold k0_pay1
  exact Cert.Lib.RowBlocks.matmul_rows_eq_dotGeneral (M := 50000) (K := 128) (N := 96) (B := 5000) none none x w
    (truncf .bf16 x0 bitsLt_bf16_f32) (truncf .bf16 x1 bitsLt_bf16_f32) p r q hx hw

/-- What the body leaves at point t, at a local index j, is the whole product of the arrays the launch finds,
    read at the place of the result array that the block's index j is. -/
theorem cell0 (c : Dev nD) (t : Fin cfg0.N) (j : S5000x96.Idx) :
    k0_pay1 (F := Ideal) (iblk0 V c 0 t) (iblk0 V c 1 t) j
      = prod0 (V c main_arg0) (V c main_arg2) (((cfg0.win 2).blk t).view.emb j) := by
  have hN : cfg0.N = 10 := N_0
  have ht : t.val < 10 := hN ▸ t.isLt
  obtain ⟨-, -, -, -, e0, e1⟩ := idx0 t
  obtain ⟨p, q, rfl⟩ : ∃ (p : Fin 5000) (q : Fin 96), j = ix2 p q := ⟨j 0, j 1, eq_ix2 j⟩
  have hp : p.val < 5000 := p.isLt
  refine (pay0_apply (iblk0 V c 0 t) (iblk0 V c 1 t) (V c main_arg0) (V c main_arg2) p q
    ⟨5000 * t.val + p.val, by omega⟩ (fun k => iblk0_0_apply V c t (ix2 p k) (ix2 _ k) rfl rfl)
    (fun k => iblk0_1_apply V c t (ix2 k q))).trans ?_
  refine congrArg _ ?_
  funext a
  apply Fin.ext
  match a with
  | ⟨0, _⟩ => show 5000 * t.val + p.val = win0_2.index t 0 * 5000 + 1 * p.val; rw [e0]; omega
  | ⟨1, _⟩ => show q.val = win0_2.index t 1 * 96 + 1 * q.val; rw [e1]; omega

/-- What point t writes back is block t of the whole product. -/
theorem flushed0 (c : Dev nD) (t : Fin cfg0.N) :
    (dat0 (F := Ideal) V c).flushed 2 t
      = ((cfg0.win 2).blk t).view.read (Elt Ideal) (prod0 (V c main_arg0) (V c main_arg2)) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x96) hz]
  funext j
  exact cell0 V c t j

/-- The ten row blocks tile the result array: row i lies in block i / 5000. -/
theorem cover0 (i : S50000x96.Idx) :
    ∃ t : Fin cfg0.N, (cfg0.win 2).flush t = true ∧ i ∈ ((cfg0.win 2).blk t).view.set := by
  have hN : cfg0.N = 10 := N_0
  have h0 : (i 0).val < 50000 := (i 0).isLt
  have h1 : (i 1).val < 96 := (i 1).isLt
  obtain ⟨t, ht⟩ : ∃ t : Fin cfg0.N, t.val = (i 0).val / 5000 := ⟨⟨(i 0).val / 5000, by rw [hN]; omega⟩, rfl⟩
  obtain ⟨-, -, -, -, e0, e1⟩ := idx0 t
  refine ⟨t, flush0_2 t, ?_⟩
  show i ∈ ((View.whole main_v31).slice (win0_2.rect t)).set
  rw [View.set_slice_whole, Rect.mem_set_unit]
  intro a
  match a with
  | ⟨0, _⟩ => show win0_2.index t 0 * 5000 ≤ (i 0).val ∧ (i 0).val < win0_2.index t 0 * 5000 + 5000; rw [e0, ht]; omega
  | ⟨1, _⟩ => show win0_2.index t 1 * 96 ≤ (i 1).val ∧ (i 1).val < win0_2.index t 1 * 96 + 96; rw [e1]; omega

/-- The result array after the launch is the whole product of the two operand arrays as the launch found them. -/
theorem final0 (c : Dev nD) :
    (dat0 (F := Ideal) V c).arrAt 2 cfg0.N = prod0 (V c main_arg0) (V c main_arg2) :=
  (dat0 (F := Ideal) V c).arrAt_eq_of_cover 2 (prod0 (V c main_arg0) (V c main_arg2)) (fun t _ => flushed0 V c t) (cover0)

/-! ## Launch 1: [50000, 96] times [96, 48], ten blocks of 5000 rows -/

/-- The launch's whole product: the host's plain `dot_general` of the two whole operands. -/
abbrev prod1 (x : FVec Ideal S50000x96 .f32) (w : FVec Ideal S96x48 .f32) : FVec Ideal S50000x48 .f32 :=
  Host.dotGeneral (DotDims.plain 50000 96 48) none x w

/-- The printed index maps over the grid: at point t the left operand's and the result's block is block t of
    the rows, and the right operand's block is the whole matrix. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The left operand's block at point t is rows 5000·t … 5000·t + 4999 of the array the launch finds. -/
theorem iblk1_0_apply (c : Dev nD) (t : Fin cfg1.N) (x : S5000x96.Idx) (k : S50000x96.Idx)
    (hk0 : (k 0).val = 5000 * t.val + (x 0).val) (hk1 : (k 1).val = (x 1).val) :
    (iblk1 V c 0 t : Vec Ideal S5000x96 .f32) x = (V c main_v48 : S50000x96.Idx → Elt Ideal .f32) k := by
  obtain ⟨e0, e1, -⟩ := idx1 t
  unfold iblk1
  rw [View.read_apply]
  show V c main_v48 _ = V c main_v48 _
  refine congrArg _ ?_
  funext a
  apply Fin.ext
  match a with
  | ⟨0, _⟩ => show win1_0.index t 0 * 5000 + 1 * (x 0).val = (k 0).val; rw [e0, hk0]; omega
  | ⟨1, _⟩ => show win1_0.index t 1 * 96 + 1 * (x 1).val = (k 1).val; rw [e1, hk1]; omega

/-- The right operand's block at every point is the whole matrix. -/
theorem iblk1_1_apply (c : Dev nD) (t : Fin cfg1.N) (x : S96x48.Idx) :
    (iblk1 V c 1 t : Vec Ideal S96x48 .f32) x = (V c main_arg4 : S96x48.Idx → Elt Ideal .f32) x := by
  obtain ⟨-, -, e0, e1, -⟩ := idx1 t
  unfold iblk1
  rw [View.read_apply]
  show V c main_arg4 _ = V c main_arg4 _
  refine congrArg _ ?_
  funext a
  apply Fin.ext
  match a with
  | ⟨0, _⟩ => show win1_1.index t 0 * 96 + 1 * (x 0).val = (x 0).val; rw [e0]; omega
  | ⟨1, _⟩ => show win1_1.index t 1 * 48 + 1 * (x 1).val = (x 1).val; rw [e1]; omega

/-- The body's stored value at the local index (p, q): both operands are rounded to bf16 — the identity at the
    ideal values — and multiplied into the zero accumulator, so the entry is the whole product's at (r, q)
    when row p of the loaded block is row r of the whole left operand. -/
theorem pay1_apply (x0 : Vec Ideal S5000x96 .f32) (x1 : Vec Ideal S96x48 .f32)
    (x : FVec Ideal S50000x96 .f32) (w : FVec Ideal S96x48 .f32) (p : Fin 5000) (q : Fin 48) (r : Fin 50000)
    (hx : ∀ k : Fin 96, x0 (ix2 p k) = x (ix2 r k)) (hw : ∀ k : Fin 96, x1 (ix2 k q) = w (ix2 k q)) :
    k1_pay1 (F := Ideal) x0 x1 (ix2 p q) = prod1 x w (ix2 r q) := by
  unfold k1_pay1
  exact Cert.Lib.RowBlocks.matmul_rows_eq_dotGeneral (M := 50000) (K := 96) (N := 48) (B := 5000) none none x w
    (truncf .bf16 (shapeCast S5000x96 x0 shapeCasts_S5000x96_S5000x96) bitsLt_bf16_f32) (truncf .bf16 x1 bitsLt_bf16_f32) p r q (fun k => (congrFun (shapeCast_self x0 shapeCasts_S5000x96_S5000x96) (ix2 p k)).trans (hx k)) hw

/-- What the body leaves at point t, at a local index j, is the whole product of the arrays the launch finds,
    read at the place of the result array that the block's index j is. -/
theorem cell1 (c : Dev nD) (t : Fin cfg1.N) (j : S5000x48.Idx) :
    k1_pay1 (F := Ideal) (iblk1 V c 0 t) (iblk1 V c 1 t) j
      = prod1 (V c main_v48) (V c main_arg4) (((cfg1.win 2).blk t).view.emb j) := by
  have hN : cfg1.N = 10 := N_1
  have ht : t.val < 10 := hN ▸ t.isLt
  obtain ⟨-, -, -, -, e0, e1⟩ := idx1 t
  obtain ⟨p, q, rfl⟩ : ∃ (p : Fin 5000) (q : Fin 48), j = ix2 p q := ⟨j 0, j 1, eq_ix2 j⟩
  have hp : p.val < 5000 := p.isLt
  refine (pay1_apply (iblk1 V c 0 t) (iblk1 V c 1 t) (V c main_v48) (V c main_arg4) p q
    ⟨5000 * t.val + p.val, by omega⟩ (fun k => iblk1_0_apply V c t (ix2 p k) (ix2 _ k) rfl rfl)
    (fun k => iblk1_1_apply V c t (ix2 k q))).trans ?_
  refine congrArg _ ?_
  funext a
  apply Fin.ext
  match a with
  | ⟨0, _⟩ => show 5000 * t.val + p.val = win1_2.index t 0 * 5000 + 1 * p.val; rw [e0]; omega
  | ⟨1, _⟩ => show q.val = win1_2.index t 1 * 48 + 1 * q.val; rw [e1]; omega

/-- What point t writes back is block t of the whole product. -/
theorem flushed1 (c : Dev nD) (t : Fin cfg1.N) :
    (dat1 (F := Ideal) V c).flushed 2 t
      = ((cfg1.win 2).blk t).view.read (Elt Ideal) (prod1 (V c main_v48) (V c main_arg4)) := by
  show (cfg1.win 2).cut (grid1.coords t) ((dat1 V c).after 2 t) = _
  rw [after1_2]
  unfold out1_2
  rw [View.canon_unit_zero hz]
  simp only [View.ld_unit_zero (S := S5000x96) hz, View.ld_unit_zero (S := S96x48) hz]
  funext j
  exact cell1 V c t j

/-- The ten row blocks tile the result array: row i lies in block i / 5000. -/
theorem cover1 (i : S50000x48.Idx) :
    ∃ t : Fin cfg1.N, (cfg1.win 2).flush t = true ∧ i ∈ ((cfg1.win 2).blk t).view.set := by
  have hN : cfg1.N = 10 := N_1
  have h0 : (i 0).val < 50000 := (i 0).isLt
  have h1 : (i 1).val < 48 := (i 1).isLt
  obtain ⟨t, ht⟩ : ∃ t : Fin cfg1.N, t.val = (i 0).val / 5000 := ⟨⟨(i 0).val / 5000, by rw [hN]; omega⟩, rfl⟩
  obtain ⟨-, -, -, -, e0, e1⟩ := idx1 t
  refine ⟨t, flush1_2 t, ?_⟩
  show i ∈ ((View.whole main_v49).slice (win1_2.rect t)).set
  rw [View.set_slice_whole, Rect.mem_set_unit]
  intro a
  match a with
  | ⟨0, _⟩ => show win1_2.index t 0 * 5000 ≤ (i 0).val ∧ (i 0).val < win1_2.index t 0 * 5000 + 5000; rw [e0, ht]; omega
  | ⟨1, _⟩ => show win1_2.index t 1 * 48 ≤ (i 1).val ∧ (i 1).val < win1_2.index t 1 * 48 + 48; rw [e1]; omega

/-- The result array after the launch is the whole product of the two operand arrays as the launch found them. -/
theorem final1 (c : Dev nD) :
    (dat1 (F := Ideal) V c).arrAt 2 cfg1.N = prod1 (V c main_v48) (V c main_arg4) :=
  (dat1 (F := Ideal) V c).arrAt_eq_of_cover 2 (prod1 (V c main_v48) (V c main_arg4)) (fun t _ => flushed1 V c t) (cover1)

end Cert.KernelIdeal.Blocks

end
-- ==== Proof.Bridge.lean ====
/-
  The two idealized programs return the same array.

  Both programs are the same two-layer graph convolution.  From the edge list they build the source and the
  destination ids with one self loop appended per node, count each node's in-degree by a scatter-add of ones,
  take its reciprocal square root where it is positive, and weigh edge e by the product of its two end nodes'
  values.  A layer multiplies the node features by a weight matrix, gathers the product's rows at the edges'
  sources, scales them by the edge weights, scatter-adds them at the destinations and adds the bias; a relu
  sits between the two layers.  The ONLY difference is the matrix product: the reference takes the host's
  `dot_general` of the whole arrays, the kernel program launches a blocked product on the matrix unit — which
  at the ideal values leaves exactly that `dot_general` in its result array.

  So the reference's straight line of operations is cut where the kernel program's launches are — a first
  stretch, the first product, a middle stretch, the second product, a last stretch — and the two programs are
  walked side by side: each stretch is, operation by operation, the same function of the buffers it reads,
  whatever those hold; each product agrees by the blocks' lemma; a buffer a piece does not write is carried
  over on both sides.  No finiteness is needed: no law of the reals is applied, the two sides are the same sums.
-/
import proofs.«111291_j7876970020898_1_alg».proof.Proof.Gen.KernelIdeal.Frame
import proofs.«111291_j7876970020898_1_alg».proof.Proof.Blocks
import proofs.«111291_j7876970020898_1_alg».proof.Proof.RefRun
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.Bridge

open Cert.KernelIdeal Cert.KernelIdeal.Gen Cert.KernelIdeal.Blocks

/-! ## The pieces of the two programs -/

/-- The reference's operations, at the ideal values. -/
abbrev rops : List (HloOp Cert.ReferenceIdeal.τ Cert.ReferenceIdeal.sig (Elt Ideal)) := Cert.ReferenceIdeal.ValueP.ops (F := Ideal)
/-- Its first stretch: the ids and the edge weights (41 operations). -/
abbrev refHead : List (HloOp Cert.ReferenceIdeal.τ Cert.ReferenceIdeal.sig (Elt Ideal)) := rops.take 41
/-- Its first `dot_general`. -/
abbrev refDot0 : List (HloOp Cert.ReferenceIdeal.τ Cert.ReferenceIdeal.sig (Elt Ideal)) := (rops.drop 41).take 1
/-- Its middle stretch: the first layer's aggregation, bias and relu (22 operations). -/
abbrev refMid : List (HloOp Cert.ReferenceIdeal.τ Cert.ReferenceIdeal.sig (Elt Ideal)) := (rops.drop 42).take 22
/-- Its second `dot_general`. -/
abbrev refDot1 : List (HloOp Cert.ReferenceIdeal.τ Cert.ReferenceIdeal.sig (Elt Ideal)) := (rops.drop 64).take 1
/-- Its last stretch: the second layer's aggregation and bias (19 operations). -/
abbrev refTail : List (HloOp Cert.ReferenceIdeal.τ Cert.ReferenceIdeal.sig (Elt Ideal)) := rops.drop 65

/-- The kernel program's host stretches before the first launch, between the launches, and after the second. -/
abbrev kHead (V : Valuation τ sig (Elt Ideal)) : Valuation τ sig (Elt Ideal) :=
  after hostOps0_2 (after hostOps0_1 (after hostOps0 V))
abbrev kMid (V : Valuation τ sig (Elt Ideal)) : Valuation τ sig (Elt Ideal) :=
  after hostOps1_1 (after hostOps1 V)
abbrev kTail (V : Valuation τ sig (Elt Ideal)) : Valuation τ sig (Elt Ideal) :=
  after hostOps2 V

/-- Operations run one list after the other are their concatenation run as one. -/
theorem after_append {τ' : Topo} {sig' : RefSig} {Val : EltTy → Type} :
    ∀ (l₁ l₂ : List (HloOp τ' sig' Val)) (V : Valuation τ' sig' Val), after (l₁ ++ l₂) V = after l₂ (after l₁ V)
  | [], _, _ => rfl
  | op :: l, l₂, V => by rw [List.cons_append, after_cons, after_cons, after_append l l₂]

/-- The reference is its five pieces in order. -/
theorem rops_split : rops = refHead ++ (refDot0 ++ (refMid ++ (refDot1 ++ refTail))) := by
  simp only [refHead, refDot0, refMid, refDot1, refTail, rops, Cert.ReferenceIdeal.ValueP.ops, List.take, List.drop]
  rfl

/-! ## Inside a concatenation of ids -/

/-- Both pieces of an id vector — the edge list's row and the appended self loops — may be rewritten inside
    their concatenation (the kernel program's shapes). -/
theorem concat_ids_congr {a a' : (⟨S800000, .i32⟩ : BufTy).Contents (Elt Ideal)} {b b' : (⟨S50000, .i32⟩ : BufTy).Contents (Elt Ideal)}
    (ha : a = a') (hb : b = b') :
    concatenate S850000 0 [⟨S800000, a⟩, ⟨S50000, b⟩] concatenates_S800000_S50000_S850000_d0
      = concatenate S850000 0 [⟨S800000, a'⟩, ⟨S50000, b'⟩] concatenates_S800000_S50000_S850000_d0 := by
  subst ha hb; rfl

/-- The same for the reference's shapes. -/
theorem concat_ids_congr' {a a' : (⟨Cert.ReferenceIdeal.S800000, .i32⟩ : BufTy).Contents (Elt Ideal)} {b b' : (⟨Cert.ReferenceIdeal.S50000, .i32⟩ : BufTy).Contents (Elt Ideal)}
    (ha : a = a') (hb : b = b') :
    concatenate Cert.ReferenceIdeal.S850000 0 [⟨Cert.ReferenceIdeal.S800000, a⟩, ⟨Cert.ReferenceIdeal.S50000, b⟩] Cert.ReferenceIdeal.Gen.concatenates_S800000_S50000_S850000_d0
      = concatenate Cert.ReferenceIdeal.S850000 0 [⟨Cert.ReferenceIdeal.S800000, a'⟩, ⟨Cert.ReferenceIdeal.S50000, b'⟩] Cert.ReferenceIdeal.Gen.concatenates_S800000_S50000_S850000_d0 := by
  subst ha hb; rfl

attribute [local congr] concat_ids_congr concat_ids_congr'

/-! ## Each stretch is the same function of what it reads

For ANY contents `Vv` of the kernel program's buffers and `Vr` of the reference's. -/

section Stretches

variable (Vv : Valuation τ sig (Elt Ideal)) (Vr : Valuation Cert.ReferenceIdeal.τ Cert.ReferenceIdeal.sig (Elt Ideal))

/-- The first stretch computes the source ids from the edge list alone, by the same operations in both programs. -/
theorem head_v3 (h_arg1 : Vr (Proc.devRef .tc Cert.ReferenceIdeal.main_arg1) = Vv (Proc.devRef .tc main_arg1)) :
    kHead Vv (Proc.devRef .tc main_v3) = after refHead Vr (Proc.devRef .tc Cert.ReferenceIdeal.main_v3) := by
  simp only [kHead, kMid, kTail, refHead, refMid, refTail, refDot0, refDot1, rops, Cert.ReferenceIdeal.ValueP.ops, List.take, List.drop]
  after_results_simp
  rw [h_arg1]
  rfl

/-- The first stretch computes the destination ids from the edge list alone, by the same operations in both programs. -/
theorem head_v7 (h_arg1 : Vr (Proc.devRef .tc Cert.ReferenceIdeal.main_arg1) = Vv (Proc.devRef .tc main_arg1)) :
    kHead Vv (Proc.devRef .tc main_v7) = after refHead Vr (Proc.devRef .tc Cert.ReferenceIdeal.main_v7) := by
  simp only [kHead, kMid, kTail, refHead, refMid, refTail, refDot0, refDot1, rops, Cert.ReferenceIdeal.ValueP.ops, List.take, List.drop]
  after_results_simp
  rw [h_arg1]
  rfl

/-- The first stretch computes the edge weights from the edge list alone, by the same operations in both programs. -/
theorem head_v30 (h_arg1 : Vr (Proc.devRef .tc Cert.ReferenceIdeal.main_arg1) = Vv (Proc.devRef .tc main_arg1)) :
    kHead Vv (Proc.devRef .tc main_v30) = after refHead Vr (Proc.devRef .tc Cert.ReferenceIdeal.main_v30) := by
  simp only [kHead, kMid, kTail, refHead, refMid, refTail, refDot0, refDot1, rops, Cert.ReferenceIdeal.ValueP.ops, List.take, List.drop]
  after_results_simp
  rw [h_arg1]
  rfl

/-- The first stretch writes no argument. -/
theorem head_arg0 (h_arg0 : Vr (Proc.devRef .tc Cert.ReferenceIdeal.main_arg0) = Vv (Proc.devRef .tc main_arg0)) :
    kHead Vv (Proc.devRef .tc main_arg0) = after refHead Vr (Proc.devRef .tc Cert.ReferenceIdeal.main_arg0) := by
  simp only [kHead, kMid, kTail, refHead, refMid, refTail, refDot0, refDot1, rops, Cert.ReferenceIdeal.ValueP.ops, List.take, List.drop]
  after_results_simp
  exact h_arg0.symm

/-- The first stretch writes no argument. -/
theorem head_arg2 (h_arg2 : Vr (Proc.devRef .tc Cert.ReferenceIdeal.main_arg2) = Vv (Proc.devRef .tc main_arg2)) :
    kHead Vv (Proc.devRef .tc main_arg2) = after refHead Vr (Proc.devRef .tc Cert.ReferenceIdeal.main_arg2) := by
  simp only [kHead, kMid, kTail, refHead, refMid, refTail, refDot0, refDot1, rops, Cert.ReferenceIdeal.ValueP.ops, List.take, List.drop]
  after_results_simp
  exact h_arg2.symm

/-- The first stretch writes no argument. -/
theorem head_arg3 (h_arg3 : Vr (Proc.devRef .tc Cert.ReferenceIdeal.main_arg3) = Vv (Proc.devRef .tc main_arg3)) :
    kHead Vv (Proc.devRef .tc main_arg3) = after refHead Vr (Proc.devRef .tc Cert.ReferenceIdeal.main_arg3) := by
  simp only [kHead, kMid, kTail, refHead, refMid, refTail, refDot0, refDot1, rops, Cert.ReferenceIdeal.ValueP.ops, List.take, List.drop]
  after_results_simp
  exact h_arg3.symm

/-- The first stretch writes no argument. -/
theorem head_arg4 (h_arg4 : Vr (Proc.devRef .tc Cert.ReferenceIdeal.main_arg4) = Vv (Proc.devRef .tc main_arg4)) :
    kHead Vv (Proc.devRef .tc main_arg4) = after refHead Vr (Proc.devRef .tc Cert.ReferenceIdeal.main_arg4) := by
  simp only [kHead, kMid, kTail, refHead, refMid, refTail, refDot0, refDot1, rops, Cert.ReferenceIdeal.ValueP.ops, List.take, List.drop]
  after_results_simp
  exact h_arg4.symm

/-- The first stretch writes no argument. -/
theorem head_arg5 (h_arg5 : Vr (Proc.devRef .tc Cert.ReferenceIdeal.main_arg5) = Vv (Proc.devRef .tc main_arg5)) :
    kHead Vv (Proc.devRef .tc main_arg5) = after refHead Vr (Proc.devRef .tc Cert.ReferenceIdeal.main_arg5) := by
  simp only [kHead, kMid, kTail, refHead, refMid, refTail, refDot0, refDot1, rops, Cert.ReferenceIdeal.ValueP.ops, List.take, List.drop]
  after_results_simp
  exact h_arg5.symm

/-- The middle stretch — gather the product's rows at the sources, scale by the edge weights, scatter-add at the destinations, add the bias, relu — is the same function of the first product, the ids, the weights and the bias in both programs. -/
theorem mid_v48 (h_v31 : Vr (Proc.devRef .tc Cert.ReferenceIdeal.main_v31) = Vv (Proc.devRef .tc main_v31)) (h_v3 : Vr (Proc.devRef .tc Cert.ReferenceIdeal.main_v3) = Vv (Proc.devRef .tc main_v3)) (h_v7 : Vr (Proc.devRef .tc Cert.ReferenceIdeal.main_v7) = Vv (Proc.devRef .tc main_v7)) (h_v30 : Vr (Proc.devRef .tc Cert.ReferenceIdeal.main_v30) = Vv (Proc.devRef .tc main_v30)) (h_arg3 : Vr (Proc.devRef .tc Cert.ReferenceIdeal.main_arg3) = Vv (Proc.devRef .tc main_arg3)) :
    kMid Vv (Proc.devRef .tc main_v48) = after refMid Vr (Proc.devRef .tc Cert.ReferenceIdeal.main_v48) := by
  simp only [kHead, kMid, kTail, refHead, refMid, refTail, refDot0, refDot1, rops, Cert.ReferenceIdeal.ValueP.ops, List.take, List.drop]
  after_results_simp
  rw [h_v31, h_v3, h_v7, h_v30, h_arg3]
  rfl

/-- The middle stretch leaves this buffer alone. -/
theorem mid_v3 (h_v3 : Vr (Proc.devRef .tc Cert.ReferenceIdeal.main_v3) = Vv (Proc.devRef .tc main_v3)) :
    kMid Vv (Proc.devRef .tc main_v3) = after refMid Vr (Proc.devRef .tc Cert.ReferenceIdeal.main_v3) := by
  simp only [kHead, kMid, kTail, refHead, refMid, refTail, refDot0, refDot1, rops, Cert.ReferenceIdeal.ValueP.ops, List.take, List.drop]
  after_results_simp
  exact h_v3.symm

/-- The middle stretch leaves this buffer alone. -/
theorem mid_v7 (h_v7 : Vr (Proc.devRef .tc Cert.ReferenceIdeal.main_v7) = Vv (Proc.devRef .tc main_v7)) :
    kMid Vv (Proc.devRef .tc main_v7) = after refMid Vr (Proc.devRef .tc Cert.ReferenceIdeal.main_v7) := by
  simp only [kHead, kMid, kTail, refHead, refMid, refTail, refDot0, refDot1, rops, Cert.ReferenceIdeal.ValueP.ops, List.take, List.drop]
  after_results_simp
  exact h_v7.symm

/-- The middle stretch leaves this buffer alone. -/
theorem mid_v30 (h_v30 : Vr (Proc.devRef .tc Cert.ReferenceIdeal.main_v30) = Vv (Proc.devRef .tc main_v30)) :
    kMid Vv (Proc.devRef .tc main_v30) = after refMid Vr (Proc.devRef .tc Cert.ReferenceIdeal.main_v30) := by
  simp only [kHead, kMid, kTail, refHead, refMid, refTail, refDot0, refDot1, rops, Cert.ReferenceIdeal.ValueP.ops, List.take, List.drop]
  after_results_simp
  exact h_v30.symm

/-- The middle stretch leaves this buffer alone. -/
theorem mid_arg4 (h_arg4 : Vr (Proc.devRef .tc Cert.ReferenceIdeal.main_arg4) = Vv (Proc.devRef .tc main_arg4)) :
    kMid Vv (Proc.devRef .tc main_arg4) = after refMid Vr (Proc.devRef .tc Cert.ReferenceIdeal.main_arg4) := by
  simp only [kHead, kMid, kTail, refHead, refMid, refTail, refDot0, refDot1, rops, Cert.ReferenceIdeal.ValueP.ops, List.take, List.drop]
  after_results_simp
  exact h_arg4.symm

/-- The middle stretch leaves this buffer alone. -/
theorem mid_arg5 (h_arg5 : Vr (Proc.devRef .tc Cert.ReferenceIdeal.main_arg5) = Vv (Proc.devRef .tc main_arg5)) :
    kMid Vv (Proc.devRef .tc main_arg5) = after refMid Vr (Proc.devRef .tc Cert.ReferenceIdeal.main_arg5) := by
  simp only [kHead, kMid, kTail, refHead, refMid, refTail, refDot0, refDot1, rops, Cert.ReferenceIdeal.ValueP.ops, List.take, List.drop]
  after_results_simp
  exact h_arg5.symm

/-- The last stretch — gather, scale, scatter-add, bias — is the same function of the second product, the ids, the weights and the bias in both programs. -/
theorem tail_v65 (h_v49 : Vr (Proc.devRef .tc Cert.ReferenceIdeal.main_v49) = Vv (Proc.devRef .tc main_v49)) (h_v3 : Vr (Proc.devRef .tc Cert.ReferenceIdeal.main_v3) = Vv (Proc.devRef .tc main_v3)) (h_v7 : Vr (Proc.devRef .tc Cert.ReferenceIdeal.main_v7) = Vv (Proc.devRef .tc main_v7)) (h_v30 : Vr (Proc.devRef .tc Cert.ReferenceIdeal.main_v30) = Vv (Proc.devRef .tc main_v30)) (h_arg5 : Vr (Proc.devRef .tc Cert.ReferenceIdeal.main_arg5) = Vv (Proc.devRef .tc main_arg5)) :
    kTail Vv (Proc.devRef .tc main_v65) = after refTail Vr (Proc.devRef .tc Cert.ReferenceIdeal.main_v65) := by
  simp only [kHead, kMid, kTail, refHead, refMid, refTail, refDot0, refDot1, rops, Cert.ReferenceIdeal.ValueP.ops, List.take, List.drop]
  after_results_simp
  rw [h_v49, h_v3, h_v7, h_v30, h_arg5]
  rfl

/-! ## The reference's two products -/

/-- The reference's first product: the host's `dot_general` of the node features and the first weight matrix. -/
theorem dot0_v31 : after refDot0 Vr (Proc.devRef .tc Cert.ReferenceIdeal.main_v31)
    = (Host.dotGeneral (F := Ideal) (φ₁ := .f32) (φ₂ := .f32) Cert.ReferenceIdeal.dot_S50000x128_S128x96_S50000x96_1_0_0_1_n_n none
        (Vr (Proc.devRef .tc Cert.ReferenceIdeal.main_arg0) : FVec Ideal Cert.ReferenceIdeal.S50000x128 .f32) (Vr (Proc.devRef .tc Cert.ReferenceIdeal.main_arg2) : FVec Ideal Cert.ReferenceIdeal.S128x96 .f32)
        : FVec Ideal Cert.ReferenceIdeal.S50000x96 .f32) := by
  simp only [refDot0, rops, Cert.ReferenceIdeal.ValueP.ops, List.take, List.drop]
  after_results_simp
  all_goals rfl

/-- It writes nothing else. -/
theorem dot0_v3 : after refDot0 Vr (Proc.devRef .tc Cert.ReferenceIdeal.main_v3) = Vr (Proc.devRef .tc Cert.ReferenceIdeal.main_v3) := by
  simp only [refDot0, refDot1, rops, Cert.ReferenceIdeal.ValueP.ops, List.take, List.drop]
  after_results_simp
theorem dot0_v7 : after refDot0 Vr (Proc.devRef .tc Cert.ReferenceIdeal.main_v7) = Vr (Proc.devRef .tc Cert.ReferenceIdeal.main_v7) := by
  simp only [refDot0, refDot1, rops, Cert.ReferenceIdeal.ValueP.ops, List.take, List.drop]
  after_results_simp
theorem dot0_v30 : after refDot0 Vr (Proc.devRef .tc Cert.ReferenceIdeal.main_v30) = Vr (Proc.devRef .tc Cert.ReferenceIdeal.main_v30) := by
  simp only [refDot0, refDot1, rops, Cert.ReferenceIdeal.ValueP.ops, List.take, List.drop]
  after_results_simp
theorem dot0_arg3 : after refDot0 Vr (Proc.devRef .tc Cert.ReferenceIdeal.main_arg3) = Vr (Proc.devRef .tc Cert.ReferenceIdeal.main_arg3) := by
  simp only [refDot0, refDot1, rops, Cert.ReferenceIdeal.ValueP.ops, List.take, List.drop]
  after_results_simp
theorem dot0_arg4 : after refDot0 Vr (Proc.devRef .tc Cert.ReferenceIdeal.main_arg4) = Vr (Proc.devRef .tc Cert.ReferenceIdeal.main_arg4) := by
  simp only [refDot0, refDot1, rops, Cert.ReferenceIdeal.ValueP.ops, List.take, List.drop]
  after_results_simp
theorem dot0_arg5 : after refDot0 Vr (Proc.devRef .tc Cert.ReferenceIdeal.main_arg5) = Vr (Proc.devRef .tc Cert.ReferenceIdeal.main_arg5) := by
  simp only [refDot0, refDot1, rops, Cert.ReferenceIdeal.ValueP.ops, List.take, List.drop]
  after_results_simp

/-- The reference's second product: the host's `dot_general` of the hidden features and the second weight matrix. -/
theorem dot1_v49 : after refDot1 Vr (Proc.devRef .tc Cert.ReferenceIdeal.main_v49)
    = (Host.dotGeneral (F := Ideal) (φ₁ := .f32) (φ₂ := .f32) Cert.ReferenceIdeal.dot_S50000x96_S96x48_S50000x48_1_0_0_1_n_n none
        (Vr (Proc.devRef .tc Cert.ReferenceIdeal.main_v48) : FVec Ideal Cert.ReferenceIdeal.S50000x96 .f32) (Vr (Proc.devRef .tc Cert.ReferenceIdeal.main_arg4) : FVec Ideal Cert.ReferenceIdeal.S96x48 .f32)
        : FVec Ideal Cert.ReferenceIdeal.S50000x48 .f32) := by
  simp only [refDot1, rops, Cert.ReferenceIdeal.ValueP.ops, List.take, List.drop]
  after_results_simp
  all_goals rfl

/-- It writes nothing else. -/
theorem dot1_v3 : after refDot1 Vr (Proc.devRef .tc Cert.ReferenceIdeal.main_v3) = Vr (Proc.devRef .tc Cert.ReferenceIdeal.main_v3) := by
  simp only [refDot0, refDot1, rops, Cert.ReferenceIdeal.ValueP.ops, List.take, List.drop]
  after_results_simp
theorem dot1_v7 : after refDot1 Vr (Proc.devRef .tc Cert.ReferenceIdeal.main_v7) = Vr (Proc.devRef .tc Cert.ReferenceIdeal.main_v7) := by
  simp only [refDot0, refDot1, rops, Cert.ReferenceIdeal.ValueP.ops, List.take, List.drop]
  after_results_simp
theorem dot1_v30 : after refDot1 Vr (Proc.devRef .tc Cert.ReferenceIdeal.main_v30) = Vr (Proc.devRef .tc Cert.ReferenceIdeal.main_v30) := by
  simp only [refDot0, refDot1, rops, Cert.ReferenceIdeal.ValueP.ops, List.take, List.drop]
  after_results_simp
theorem dot1_arg5 : after refDot1 Vr (Proc.devRef .tc Cert.ReferenceIdeal.main_arg5) = Vr (Proc.devRef .tc Cert.ReferenceIdeal.main_arg5) := by
  simp only [refDot0, refDot1, rops, Cert.ReferenceIdeal.ValueP.ops, List.take, List.drop]
  after_results_simp

end Stretches

/-! ## The two programs side by side -/

variable (m : (ℓ : Loc nD τ sig) → Buf (Elt Ideal) ℓ) (ρ : Dev nD → PrngReg)

/-- After the first launch its result buffer holds the whole product of the node features and the first
    weight matrix, as the launch found them. -/
theorem first_product (c : Dev nD) :
    W4 m ρ c (Proc.devRef .tc main_v31) = prod0 (W3 m ρ c (Proc.devRef .tc main_arg0)) (W3 m ρ c (Proc.devRef .tc main_arg2)) :=
  (W4_arr m ρ c 2).trans (final0 (V3 m ρ) c)

/-- After the second launch its result buffer holds the whole product of the hidden features and the second
    weight matrix, as the launch found them. -/
theorem second_product (c : Dev nD) :
    W7 m ρ c (Proc.devRef .tc main_v49) = prod1 (W6 m ρ c (Proc.devRef .tc main_v48)) (W6 m ρ c (Proc.devRef .tc main_arg4)) :=
  (W7_arr m ρ c 2).trans (final1 (V6 m ρ) c)

/-- The reference's result, from a memory that agrees with the kernel program's on the six arguments, is the
    kernel program's result buffer at its last boundary. -/
theorem result_eq (m' : (ℓ : Loc Cert.ReferenceIdeal.nD Cert.ReferenceIdeal.τ Cert.ReferenceIdeal.sig) → Buf (Elt Ideal) ℓ) (c : Dev nD)
    (h0 : m' ((c.tc : Thread Cert.ReferenceIdeal.nD Cert.ReferenceIdeal.τ).loc Cert.ReferenceIdeal.main_arg0) = m ((c.tc : Thread nD τ).loc main_arg0))
    (h1 : m' ((c.tc : Thread Cert.ReferenceIdeal.nD Cert.ReferenceIdeal.τ).loc Cert.ReferenceIdeal.main_arg1) = m ((c.tc : Thread nD τ).loc main_arg1))
    (h2 : m' ((c.tc : Thread Cert.ReferenceIdeal.nD Cert.ReferenceIdeal.τ).loc Cert.ReferenceIdeal.main_arg2) = m ((c.tc : Thread nD τ).loc main_arg2))
    (h3 : m' ((c.tc : Thread Cert.ReferenceIdeal.nD Cert.ReferenceIdeal.τ).loc Cert.ReferenceIdeal.main_arg3) = m ((c.tc : Thread nD τ).loc main_arg3))
    (h4 : m' ((c.tc : Thread Cert.ReferenceIdeal.nD Cert.ReferenceIdeal.τ).loc Cert.ReferenceIdeal.main_arg4) = m ((c.tc : Thread nD τ).loc main_arg4))
    (h5 : m' ((c.tc : Thread Cert.ReferenceIdeal.nD Cert.ReferenceIdeal.τ).loc Cert.ReferenceIdeal.main_arg5) = m ((c.tc : Thread nD τ).loc main_arg5)) :
    after rops (launchContents m' c) (Proc.devRef .tc Cert.ReferenceIdeal.main_v65) = W8 m ρ c (Proc.devRef .tc main_v65) := by
  rw [rops_split, after_append, after_append, after_append, after_append]
  -- the first stretch
  have a_v3 := head_v3 (W0 m ρ c) (launchContents m' c) h1
  have a_v7 := head_v7 (W0 m ρ c) (launchContents m' c) h1
  have a_v30 := head_v30 (W0 m ρ c) (launchContents m' c) h1
  have a_arg0 := head_arg0 (W0 m ρ c) (launchContents m' c) h0
  have a_arg2 := head_arg2 (W0 m ρ c) (launchContents m' c) h2
  have a_arg3 := head_arg3 (W0 m ρ c) (launchContents m' c) h3
  have a_arg4 := head_arg4 (W0 m ρ c) (launchContents m' c) h4
  have a_arg5 := head_arg5 (W0 m ρ c) (launchContents m' c) h5
  -- the first product
  have b_v31 : W4 m ρ c (Proc.devRef .tc main_v31) = after refDot0 (after refHead (launchContents m' c)) (Proc.devRef .tc Cert.ReferenceIdeal.main_v31) :=
    (first_product m ρ c).trans ((congrArg₂ prod0 a_arg0 a_arg2).trans (dot0_v31 _).symm)
  have b_v3 : W4 m ρ c (Proc.devRef .tc main_v3) = after refDot0 (after refHead (launchContents m' c)) (Proc.devRef .tc Cert.ReferenceIdeal.main_v3) :=
    (W4_of_ne m ρ c main_v3 (by decide)).trans (a_v3.trans (dot0_v3 _).symm)
  have b_v7 : W4 m ρ c (Proc.devRef .tc main_v7) = after refDot0 (after refHead (launchContents m' c)) (Proc.devRef .tc Cert.ReferenceIdeal.main_v7) :=
    (W4_of_ne m ρ c main_v7 (by decide)).trans (a_v7.trans (dot0_v7 _).symm)
  have b_v30 : W4 m ρ c (Proc.devRef .tc main_v30) = after refDot0 (after refHead (launchContents m' c)) (Proc.devRef .tc Cert.ReferenceIdeal.main_v30) :=
    (W4_of_ne m ρ c main_v30 (by decide)).trans (a_v30.trans (dot0_v30 _).symm)
  have b_arg3 : W4 m ρ c (Proc.devRef .tc main_arg3) = after refDot0 (after refHead (launchContents m' c)) (Proc.devRef .tc Cert.ReferenceIdeal.main_arg3) :=
    (W4_of_ne m ρ c main_arg3 (by decide)).trans (a_arg3.trans (dot0_arg3 _).symm)
  have b_arg4 : W4 m ρ c (Proc.devRef .tc main_arg4) = after refDot0 (after refHead (launchContents m' c)) (Proc.devRef .tc Cert.ReferenceIdeal.main_arg4) :=
    (W4_of_ne m ρ c main_arg4 (by decide)).trans (a_arg4.trans (dot0_arg4 _).symm)
  have b_arg5 : W4 m ρ c (Proc.devRef .tc main_arg5) = after refDot0 (after refHead (launchContents m' c)) (Proc.devRef .tc Cert.ReferenceIdeal.main_arg5) :=
    (W4_of_ne m ρ c main_arg5 (by decide)).trans (a_arg5.trans (dot0_arg5 _).symm)
  -- the middle stretch
  have c_v48 := mid_v48 (W4 m ρ c) (after refDot0 (after refHead (launchContents m' c))) b_v31.symm b_v3.symm b_v7.symm b_v30.symm b_arg3.symm
  have c_v3 := mid_v3 (W4 m ρ c) (after refDot0 (after refHead (launchContents m' c))) b_v3.symm
  have c_v7 := mid_v7 (W4 m ρ c) (after refDot0 (after refHead (launchContents m' c))) b_v7.symm
  have c_v30 := mid_v30 (W4 m ρ c) (after refDot0 (after refHead (launchContents m' c))) b_v30.symm
  have c_arg4 := mid_arg4 (W4 m ρ c) (after refDot0 (after refHead (launchContents m' c))) b_arg4.symm
  have c_arg5 := mid_arg5 (W4 m ρ c) (after refDot0 (after refHead (launchContents m' c))) b_arg5.symm
  -- the second product
  have d_v49 : W7 m ρ c (Proc.devRef .tc main_v49)
      = after refDot1 (after refMid (after refDot0 (after refHead (launchContents m' c)))) (Proc.devRef .tc Cert.ReferenceIdeal.main_v49) :=
    (second_product m ρ c).trans ((congrArg₂ prod1 c_v48 c_arg4).trans (dot1_v49 _).symm)
  have d_v3 : W7 m ρ c (Proc.devRef .tc main_v3)
      = after refDot1 (after refMid (after refDot0 (after refHead (launchContents m' c)))) (Proc.devRef .tc Cert.ReferenceIdeal.main_v3) :=
    (W7_of_ne m ρ c main_v3 (by decide)).trans (c_v3.trans (dot1_v3 _).symm)
  have d_v7 : W7 m ρ c (Proc.devRef .tc main_v7)
      = after refDot1 (after refMid (after refDot0 (after refHead (launchContents m' c)))) (Proc.devRef .tc Cert.ReferenceIdeal.main_v7) :=
    (W7_of_ne m ρ c main_v7 (by decide)).trans (c_v7.trans (dot1_v7 _).symm)
  have d_v30 : W7 m ρ c (Proc.devRef .tc main_v30)
      = after refDot1 (after refMid (after refDot0 (after refHead (launchContents m' c)))) (Proc.devRef .tc Cert.ReferenceIdeal.main_v30) :=
    (W7_of_ne m ρ c main_v30 (by decide)).trans (c_v30.trans (dot1_v30 _).symm)
  have d_arg5 : W7 m ρ c (Proc.devRef .tc main_arg5)
      = after refDot1 (after refMid (after refDot0 (after refHead (launchContents m' c)))) (Proc.devRef .tc Cert.ReferenceIdeal.main_arg5) :=
    (W7_of_ne m ρ c main_arg5 (by decide)).trans (c_arg5.trans (dot1_arg5 _).symm)
  -- the last stretch
  exact (tail_v65 (W7 m ρ c) _ d_v49.symm d_v3.symm d_v7.symm d_v30.symm d_arg5.symm).symm

end Cert.KernelIdeal.Bridge

end
-- ==== Proof.lean ====
/-
  The certificate's claims.

  The kernel program is a two-layer graph convolution whose two dense transforms are launches of a blocked
  matrix product (ten blocks of 5000 rows, both operands rounded to bf16, an f32 accumulator) and whose edge
  normalisation, gather, scaling, scatter-add, bias and relu are host operations; the reference is the same
  host operations around the host's `dot_general`.  The ideal pass rewrote nothing, so `preserves` is
  `True`.  At the ideal values rounding to bf16 is the identity and a product accumulated into zero is the
  plain sum over the contraction index, so each launch leaves the whole `dot_general` in its result array
  and the two programs return one and the same term of the arguments: `algebraic`.  The precondition
  (finite inputs) is not used: the two sides are the same sums, no law of the reals is applied.

  The frames of the two kernel programs are the generated ones; the reference's frame is its run with the
  result dropped.
-/
import proofs.«111291_j7876970020898_1_alg».proof.Defs
import proofs.«111291_j7876970020898_1_alg».proof.Proof.Gen.Kernel
import proofs.«111291_j7876970020898_1_alg».proof.Proof.Gen.Kernel.Skeleton
import proofs.«111291_j7876970020898_1_alg».proof.Proof.Gen.Kernel.Launch
import proofs.«111291_j7876970020898_1_alg».proof.Proof.Gen.Kernel.Points
import proofs.«111291_j7876970020898_1_alg».proof.Proof.Gen.Kernel.Frame
import proofs.«111291_j7876970020898_1_alg».proof.Proof.Gen.KernelIdeal
import proofs.«111291_j7876970020898_1_alg».proof.Proof.Gen.KernelIdeal.Skeleton
import proofs.«111291_j7876970020898_1_alg».proof.Proof.Gen.KernelIdeal.Launch
import proofs.«111291_j7876970020898_1_alg».proof.Proof.Gen.KernelIdeal.Points
import proofs.«111291_j7876970020898_1_alg».proof.Proof.Gen.KernelIdeal.Frame
import proofs.«111291_j7876970020898_1_alg».proof.Proof.Gen.ReferenceIdeal
import proofs.«111291_j7876970020898_1_alg».proof.Proof.Gen.Pre_finite_inputs
import proofs.«111291_j7876970020898_1_alg».proof.Proof.RefRun
import proofs.«111291_j7876970020898_1_alg».proof.Proof.KernelRun
import proofs.«111291_j7876970020898_1_alg».proof.Proof.RefFold
import proofs.«111291_j7876970020898_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_k : Cert.frame_Kernel := fun m ρ _ => Cert.Kernel.Gen.frame m ρ

/-- So does the idealized kernel program. -/
theorem frame_ki : Cert.frame_KernelIdeal := fun m ρ _ => Cert.KernelIdeal.Gen.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Fold.run (F := Ideal) m ρ)

/-- The ideal pass rewrote no operation. -/
theorem preserves : Cert.preserves_Kernel_KernelIdeal := trivial

/-- From memories that agree on the six arguments both idealized programs run, and the reference's result — the fold
    of its operations over its launch memory — is the kernel program's result buffer at its last boundary. -/
theorem algebraic : Cert.algebraic_KernelIdeal_ReferenceIdeal := by
  intro m ρ m' ρ' _ hagree
  refine ⟨fun c => Cert.KernelIdeal.Gen.W8 m ρ c (Proc.devRef .tc Cert.KernelIdeal.main_v65),
    Cert.KernelIdeal.Named.run m ρ, ?_⟩
  refine (θ_run Cert.ReferenceIdeal.defs _ _).mono (fun _ h c => ⟨(h c).1.trans ?_, (h c).2⟩)
    (Cert.ReferenceIdeal.Fold.run (F := Ideal) m' ρ')
  obtain ⟨h0, h1, h2, h3, h4, h5⟩ := hagree c
  exact Cert.KernelIdeal.Bridge.result_eq m ρ m' c h0 h1 h2 h3 h4 h5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
